-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x2048 : Shape := ⟨2, ![512, 2048]⟩
abbrev S2048x512 : Shape := ⟨2, ![2048, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S8192x512 .f32) (main_arg1 : FVec F S512x2048 .f32) (main_arg2 : FVec F S2048x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  main_v13
-- ==== Kernel.lean ====
abbrev S8192x512 : Shape := ⟨2, ![8192, 512]⟩
abbrev S512x2048 : Shape := ⟨2, ![512, 2048]⟩
abbrev S2048x512 : Shape := ⟨2, ![2048, 512]⟩
abbrev S_ : Shape := ⟨0, ![]⟩
abbrev S2048 : Shape := ⟨1, ![2048]⟩
abbrev S1024x2048 : Shape := ⟨2, ![1024, 2048]⟩
abbrev S1x2048 : Shape := ⟨2, ![1, 2048]⟩
abbrev S8192x2048 : Shape := ⟨2, ![8192, 2048]⟩
abbrev S1024x512 : Shape := ⟨2, ![1024, 512]⟩
abbrev S1024x1024 : Shape := ⟨2, ![1024, 1024]⟩

abbrev nBuf : Space → Nat
  | .hbm => 18
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S2048x512, .f32⟩
  | .hbm, ⟨3, _⟩ => ⟨S512x2048, .f32⟩
  | .hbm, ⟨4, _⟩ => ⟨S512x2048, .f32⟩
  | .hbm, ⟨5, _⟩ => ⟨S_, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S2048, .f32⟩
  | .hbm, ⟨13, _⟩ => ⟨S512x2048, .bf16⟩
  | .hbm, ⟨14, _⟩ => ⟨S512x2048, .bf16⟩
  | .hbm, ⟨15, _⟩ => ⟨S1024x2048, .bf16⟩
  | .hbm, ⟨16, _⟩ => ⟨S1x2048, .f32⟩
  | .hbm, ⟨17, _⟩ => ⟨S8192x2048, .f32⟩
  | .local _ .vmem, ⟨0, _⟩ => ⟨S1024x512, .f32⟩
  | .local _ .vmem, ⟨1, _⟩ => ⟨S1024x512, .f32⟩
  | .local _ .vmem, ⟨2, _⟩ => ⟨S1024x2048, .bf16⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_0 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S2048x512_S512x2048_1_0 : S2048x512.Transposes [1, 0] S512x2048
  bcast_S_S512x2048 : S_.BroadcastsInDim S512x2048 (![] : Fin 0 → Fin S512x2048.rank)
  reducesTo_S512x2048_S2048_d0 : S512x2048.ReducesTo [0] S2048
  h_S_ : 0 < S_.numel
  bitsLt_bf16_f32 : FTy.bits .bf16 < FTy.bits .f32
  concatenates_S512x2048_S512x2048_S1024x2048_d0 : Shape.Concatenates [S512x2048, S512x2048] S1024x2048 0
  shapeCasts_S2048_S1x2048 : S2048.ShapeCasts S1x2048
  inb_S1024x512_S1024x512_0_0 : ∀ a, (![0, 0] : Fin 2 → Nat) a + S1024x512.size a ≤ S1024x512.size a
  h_S1024x512 : 0 < S1024x512.numel
  concatenates_S1024x512_S1024x512_S1024x1024_d1 : Shape.Concatenates [S1024x512, S1024x512] S1024x1024 1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x2048.size a
  hwx0_3 : ∀ i : grid0.Coords, EltTy.bits .f32 = 32 ∨ (Rect.block (s := S8192x2048) S1024x2048.size (cc0_transform_3 i) (hinb0_3 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v10) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v11) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x2048 : Shape := ⟨2, ![512, 2048]⟩
abbrev S2048x512 : Shape := ⟨2, ![2048, 512]⟩
abbrev S8192x2048 : Shape := ⟨2, ![8192, 2048]⟩
abbrev S_ : Shape := ⟨0, ![]⟩
abbrev S2048 : Shape := ⟨1, ![2048]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S2048x512, .f32⟩
  | .hbm, ⟨3, _⟩ => ⟨S512x2048, .f32⟩
  | .hbm, ⟨4, _⟩ => ⟨S8192x512, .f32⟩
  | .hbm, ⟨5, _⟩ => ⟨S8192x2048, .f32⟩
  | .hbm, ⟨6, _⟩ => ⟨S512x2048, .f32⟩
  | .hbm, ⟨7, _⟩ => ⟨S512x2048, .f32⟩
  | .hbm, ⟨8, _⟩ => ⟨S8192x2048, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  transposes_S2048x512_S512x2048_1_0 : S2048x512.Transposes [1, 0] S512x2048
  transposes_S512x2048_S2048x512_1_0 : S512x2048.Transposes [1, 0] S2048x512
  reducesTo_S2048x512_S2048_d1 : S2048x512.ReducesTo [1] S2048
  h_S_ : 0 < S_.numel
  bcast_S_S8192x2048 : S_.BroadcastsInDim S8192x2048 (![] : Fin 0 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x512_S512x2048_S8192x2048_1_0_0_1_n_n_wf : DotDims.WF S8192x512 S512x2048 S8192x2048 [1] [0] [0] [1] [] []

variable [Facts₀]

def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf

class Facts : Prop extends Facts₀ where

variable [Facts]
-- ==== Proof.LibStackTwo.lean ====
/-
  Two [h, n] matrices stacked as an [h + h, n] matrix, read at an index: row u is the upper matrix's row u when u < h and the
  lower matrix's row u - h otherwise.
-/
import Idealize.ShloMosaic.Lib.Pipeline.Value
import Idealize.ShloMosaic.Lib.ValueIdx

noncomputable section

namespace Cert.StackTwo

open Idealize.ShloMosaic Idealize.ShloMosaic.ValueIdx

variable {α : Type} {h n : ℕ}

/-- A row of the upper half. -/
theorem upper_apply (x y : (⟨2, ![h, n]⟩ : Shape).Idx → α)
    (hc : Shape.Concatenates [(⟨2, ![h, n]⟩ : Shape), ⟨2, ![h, n]⟩] ⟨2, ![h + h, n]⟩ (0 : Fin 2))
    (u : Fin (h + h)) (q : Fin n) (hu : u.val < h) :
    concatenate ⟨2, ![h + h, n]⟩ (0 : Fin 2) [⟨⟨2, ![h, n]⟩, x⟩, ⟨⟨2, ![h, n]⟩, y⟩] hc (ix2 u q) = x (ix2 ⟨u.val, hu⟩ q) :=
  concatenate_pair_apply_left (0 : Fin 2) x y hc (ix2 u q) rfl (ix2 ⟨u.val, hu⟩ q)
    (fun b => by match b with | ⟨0, _⟩ => rfl | ⟨1, _⟩ => rfl)

/-- A row of the lower half. -/
theorem lower_apply (x y : (⟨2, ![h, n]⟩ : Shape).Idx → α)
    (hc : Shape.Concatenates [(⟨2, ![h, n]⟩ : Shape), ⟨2, ![h, n]⟩] ⟨2, ![h + h, n]⟩ (0 : Fin 2))
    (u : Fin (h + h)) (q : Fin n) (hu : ¬ u.val < h) :
    concatenate ⟨2, ![h + h, n]⟩ (0 : Fin 2) [⟨⟨2, ![h, n]⟩, x⟩, ⟨⟨2, ![h, n]⟩, y⟩] hc (ix2 u q)
      = y (ix2 ⟨u.val - h, by have := u.isLt; omega⟩ q) :=
  concatenate_pair_apply_right (0 : Fin 2) x y hc (ix2 u q) rfl rfl (ix2 ⟨u.val - h, by have := u.isLt; omega⟩ q)
    (fun b hb => by match b with | ⟨0, _⟩ => exact absurd rfl hb | ⟨1, _⟩ => rfl)
    (by show u.val - h + h = u.val; omega)

end Cert.StackTwo

end
-- ==== Proof.Prologue.lean ====
/-
  What the program prepares on the host before the launch, read at an index.

  From the weights w : [512, 2048] and the centres cen : [2048, 512] the program forms two arrays.  The JOINED WEIGHTS, [1024, 2048],
  stack w² (rows 0 … 511) on the cross weights -2 · w² · cenᵀ (rows 512 … 1023).  The OFFSET ROW, [1, 2048], holds for every column q
  the sum over k of w(k, q)² · cen(q, k)², added to the word of zero.  Both are what the launch finds in its second and third
  operand.
-/
import proofs.«142469_j53300544143585_2_alg».proof.Proof.Gen.KernelIdeal.Value
import proofs.«142469_j53300544143585_2_alg».proof.Proof.LibStackTwo
import Idealize.ShloMosaic.Lib.StableHlo.Run
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.StableHlo Idealize.ShloMosaic.ValueIdx

namespace Cert.Rbf.Prologue

open Cert.KernelIdeal Cert.KernelIdeal.Gen

/-- The centres transposed. -/
def centresT (cen : FVec Ideal S2048x512 .f32) : FVec Ideal S512x2048 .f32 :=
  transpose S512x2048 [1, 0] cen transposes_S2048x512_S512x2048_1_0

/-- The joined weights: w² stacked on (-2 · w²) · cenᵀ. -/
def joined (w : FVec Ideal S512x2048 .f32) (cen : FVec Ideal S2048x512 .f32) : FVec Ideal S1024x2048 .bf16 :=
  concatenate S1024x2048 0
    [⟨S512x2048, truncf .bf16 (mulf w w) bitsLt_bf16_f32⟩,
     ⟨S512x2048, truncf .bf16 (mulf (mulf (broadcastInDim S512x2048 ![] bcast_S_S512x2048 (constant (F := Ideal) S_ .f32 0xC0000000#32)) (mulf w w))
        (centresT cen)) bitsLt_bf16_f32⟩]
    concatenates_S512x2048_S512x2048_S1024x2048_d0

/-- The offset row: the column sums of w² · (cenᵀ · cenᵀ), from the word of zero, as one row. -/
def offsetRow (w : FVec Ideal S512x2048 .f32) (cen : FVec Ideal S2048x512 .f32) : FVec Ideal S1x2048 .f32 :=
  shapeCast S1x2048
    (Host.reduceAdd (F := Ideal) (mulf (mulf w w) (mulf (centresT cen) (centresT cen)))
      (constant (F := Ideal) S_ .f32 0x00000000#32) reducesTo_S512x2048_S2048_d0 h_S_)
    shapeCasts_S2048_S1x2048

variable (m : (ℓ : Loc nD τ sig) → Buf (Elt Ideal) ℓ)

/-- The launch finds the joined weights in its second operand. -/
theorem V_joined (c : Dev nD) : (V m c main_call0_v10 : S1024x2048.Idx → EReal)
    = joined (m ((c : Thread nD τ).loc main_arg1)) (m ((c : Thread nD τ).loc main_arg2)) := by
  dsimp only [Gen.V, Gen.hostOps0]
  after_results
  rfl

/-- The launch finds the offset row in its third operand. -/
theorem V_offsetRow (c : Dev nD) : (V m c main_call0_v11 : S1x2048.Idx → EReal)
    = offsetRow (m ((c : Thread nD τ).loc main_arg1)) (m ((c : Thread nD τ).loc main_arg2)) := by
  dsimp only [Gen.V, Gen.hostOps0]
  after_results
  rfl

/-- Entry (k, q) of the transposed centres is entry (q, k) of the centres. -/
theorem centresT_apply (cen : FVec Ideal S2048x512 .f32) (k : Fin 512) (q : Fin 2048) :
    centresT cen (ix2 k q) = cen (ix2 q k) :=
  transpose_apply [1, 0] cen transposes_S2048x512_S512x2048_1_0 (ix2 k q) (ix2 q k) (fun b => match b with
    | ⟨0, _⟩ => rfl
    | ⟨1, _⟩ => rfl)

/-- A row of the upper half of the joined weights: the squared weight. -/
theorem joined_upper (w : FVec Ideal S512x2048 .f32) (cen : FVec Ideal S2048x512 .f32) (u : Fin 1024) (q : Fin 2048)
    (hu : u.val < 512) :
    (joined w cen (ix2 u q) : EReal) = w (ix2 ⟨u.val, hu⟩ q) * w (ix2 ⟨u.val, hu⟩ q) := by
  unfold joined
  exact Cert.StackTwo.upper_apply (h := 512) (n := 2048) _ _ concatenates_S512x2048_S512x2048_S1024x2048_d0 u q hu

/-- A row of the lower half of the joined weights: the cross weight (-2 · w²) · cen, the centre read transposed. -/
theorem joined_lower (w : FVec Ideal S512x2048 .f32) (cen : FVec Ideal S2048x512 .f32) (u : Fin 1024) (q : Fin 2048)
    (hu : ¬ u.val < 512) :
    (joined w cen (ix2 u q) : EReal)
      = (Ideal.ofBits .f32 0xC0000000#32
          * (w (ix2 ⟨u.val - 512, by have := u.isLt; omega⟩ q) * w (ix2 ⟨u.val - 512, by have := u.isLt; omega⟩ q)))
        * cen (ix2 q ⟨u.val - 512, by have := u.isLt; omega⟩) := by
  unfold joined
  refine (Cert.StackTwo.lower_apply (h := 512) (n := 2048) _ _ concatenates_S512x2048_S512x2048_S1024x2048_d0 u q hu).trans ?_
  exact congrArg (_ * ·) (centresT_apply cen ⟨u.val - 512, by have := u.isLt; omega⟩ q)

/-- Row k of the joined weights, k below 512: the squared weight. -/
theorem joined_top (w : FVec Ideal S512x2048 .f32) (cen : FVec Ideal S2048x512 .f32) (k : Fin 512) (q : Fin 2048) :
    (joined w cen (ix2 (⟨k.val, by have := k.isLt; omega⟩ : Fin 1024) q) : EReal) = w (ix2 k q) * w (ix2 k q) :=
  joined_upper w cen ⟨k.val, by have := k.isLt; omega⟩ q k.isLt

/-- Row 512 + k of the joined weights: the cross weight (-2 · w(k, q)²) · cen(q, k). -/
theorem joined_bottom (w : FVec Ideal S512x2048 .f32) (cen : FVec Ideal S2048x512 .f32) (k : Fin 512) (q : Fin 2048) :
    (joined w cen (ix2 (⟨512 + k.val, by have := k.isLt; omega⟩ : Fin 1024) q) : EReal)
      = (Ideal.ofBits .f32 0xC0000000#32 * (w (ix2 k q) * w (ix2 k q))) * cen (ix2 q k) := by
  have e : (⟨512 + k.val - 512, by have := k.isLt; omega⟩ : Fin 512) = k := Fin.ext (Nat.add_sub_cancel_left ..)
  refine (joined_lower w cen ⟨512 + k.val, by have := k.isLt; omega⟩ q (by show ¬ 512 + k.val < 512; omega)).trans ?_
  show (Ideal.ofBits .f32 0xC0000000#32
      * (w (ix2 ⟨512 + k.val - 512, _⟩ q) * w (ix2 ⟨512 + k.val - 512, _⟩ q))) * cen (ix2 q ⟨512 + k.val - 512, _⟩) = _
  rw [e]

/-- The host's sum down the columns of a [512, 2048] array from the word of zero, read at column q. -/
theorem column_sum (y : FVec Ideal S512x2048 .f32) (q : Fin 2048) :
    Host.reduceAdd (F := Ideal) y (constant (F := Ideal) S_ .f32 0x00000000#32) reducesTo_S512x2048_S2048_d0 h_S_ (ix1 q)
      = Ideal.ofBits .f32 0x00000000#32 + ∑ k : Fin 512, y (ix2 k q) := by
  simp only [Host.reduceAdd, Ideal.hostReduceAdd_def]
  rw [Ideal.hostReduceAdd_single reducesTo_S512x2048_S2048_d0 (by decide)]
  refine congrArg (_ + ·) (Finset.sum_congr rfl fun k _ => ?_)
  exact congrArg y (funext fun a => Fin.ext (by match a with | ⟨0, _⟩ => rfl | ⟨1, _⟩ => rfl))

/-- Entry q of the offset row. -/
theorem offsetRow_apply (w : FVec Ideal S512x2048 .f32) (cen : FVec Ideal S2048x512 .f32) (q : Fin 2048) :
    offsetRow w cen (ix2 (0 : Fin 1) q)
      = Ideal.ofBits .f32 0x00000000#32 + ∑ k : Fin 512, (w (ix2 k q) * w (ix2 k q)) * (cen (ix2 q k) * cen (ix2 q k)) := by
  unfold offsetRow
  refine (shapeCast_apply _ shapeCasts_S2048_S1x2048 (ix2 (0 : Fin 1) q) (ix1 q) ?_).trans ?_
  · rw [Shape.rowMajor_val_one, Shape.rowMajor_val_two]
    show q.val = 0 * 2048 + q.val
    omega
  · rw [column_sum]
    refine congrArg (_ + ·) (Finset.sum_congr rfl fun k _ => ?_)
    show (w (ix2 k q) * w (ix2 k q)) * (centresT cen (ix2 k q) * centresT cen (ix2 k q)) = _
    rw [centresT_apply]

end Cert.Rbf.Prologue

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibSideBySide.lean ====
/-
  Two [n, w] matrices laid side by side as an [n, w + w] matrix, read at an index: column u is the left matrix's column
  u when u < w and the right matrix's column u - w otherwise.
-/
import Idealize.ShloMosaic.Lib.Pipeline.Value
import Idealize.ShloMosaic.Lib.ValueIdx

noncomputable section

namespace Cert.SideBySide

open Idealize.ShloMosaic Idealize.ShloMosaic.ValueIdx

variable {α : Type} {n w : ℕ}

/-- A column of the left half. -/
theorem left_apply (x y : (⟨2, ![n, w]⟩ : Shape).Idx → α)
    (h : Shape.Concatenates [(⟨2, ![n, w]⟩ : Shape), ⟨2, ![n, w]⟩] ⟨2, ![n, w + w]⟩ (1 : Fin 2))
    (p : Fin n) (u : Fin (w + w)) (hu : u.val < w) :
    concatenate ⟨2, ![n, w + w]⟩ (1 : Fin 2) [⟨⟨2, ![n, w]⟩, x⟩, ⟨⟨2, ![n, w]⟩, y⟩] h (ix2 p u) = x (ix2 p ⟨u.val, hu⟩) :=
  concatenate_pair_apply_left (1 : Fin 2) x y h (ix2 p u) rfl (ix2 p ⟨u.val, hu⟩)
    (fun b => by match b with | ⟨0, _⟩ => rfl | ⟨1, _⟩ => rfl)

/-- A column of the right half. -/
theorem right_apply (x y : (⟨2, ![n, w]⟩ : Shape).Idx → α)
    (h : Shape.Concatenates [(⟨2, ![n, w]⟩ : Shape), ⟨2, ![n, w]⟩] ⟨2, ![n, w + w]⟩ (1 : Fin 2))
    (p : Fin n) (u : Fin (w + w)) (hu : ¬ u.val < w) :
    concatenate ⟨2, ![n, w + w]⟩ (1 : Fin 2) [⟨⟨2, ![n, w]⟩, x⟩, ⟨⟨2, ![n, w]⟩, y⟩] h (ix2 p u)
      = y (ix2 p ⟨u.val - w, by have := u.isLt; omega⟩) :=
  concatenate_pair_apply_right (1 : Fin 2) x y h (ix2 p u) rfl rfl (ix2 p ⟨u.val - w, by have := u.isLt; omega⟩)
    (fun b hb => by match b with | ⟨0, _⟩ => rfl | ⟨1, _⟩ => exact absurd rfl hb)
    (by show u.val - w + w = u.val; omega)

end Cert.SideBySide

end
-- ==== Proof.Body.lean ====
/-
  What the kernel body computes from its three blocks, read at an index.

  From a block x0 : [1024, 512] of points the body lays x0² beside x0 as a [1024, 1024] left operand, multiplies it into the
  [1024, 2048] joined-weights block x1 from a zero accumulator, and adds the one-row block x2 to every row.  The product's sum over the
  1024 shared positions splits into the first 512, where the left operand holds the squares, and the last 512, where it holds the
  points themselves.
-/
import proofs.«142469_j53300544143585_2_alg».proof.Proof.Gen.KernelIdeal.Skeleton
import proofs.«142469_j53300544143585_2_alg».proof.Proof.LibPlainProduct
import proofs.«142469_j53300544143585_2_alg».proof.Proof.LibRowsProduct
import proofs.«142469_j53300544143585_2_alg».proof.Proof.LibSideBySide
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.Rbf.Body

open Cert.KernelIdeal Cert.KernelIdeal.Gen

/-- The left operand: the block's squares beside the block. -/
def beside (x0 : FVec Ideal S1024x512 .f32) : FVec Ideal S1024x1024 .bf16 :=
  concatenate S1024x1024 1
    [⟨S1024x512, truncf .bf16 (mulf x0 x0) bitsLt_bf16_f32⟩, ⟨S1024x512, truncf .bf16 x0 bitsLt_bf16_f32⟩]
    concatenates_S1024x512_S1024x512_S1024x1024_d1

/-- Column k of the left operand, k below 512: the square. -/
theorem beside_left (x0 : FVec Ideal S1024x512 .f32) (p : Fin 1024) (k : Fin 512) :
    (beside x0 (ix2 p (⟨k.val, by have := k.isLt; omega⟩ : Fin 1024)) : EReal) = x0 (ix2 p k) * x0 (ix2 p k) := by
  unfold beside
  exact Cert.SideBySide.left_apply (n := 1024) (w := 512) _ _ concatenates_S1024x512_S1024x512_S1024x1024_d1 p
    ⟨k.val, by have := k.isLt; omega⟩ k.isLt

/-- Column 512 + k of the left operand: the point's coordinate itself. -/
theorem beside_right (x0 : FVec Ideal S1024x512 .f32) (p : Fin 1024) (k : Fin 512) :
    (beside x0 (ix2 p (⟨512 + k.val, by have := k.isLt; omega⟩ : Fin 1024)) : EReal) = x0 (ix2 p k) := by
  unfold beside
  refine (Cert.SideBySide.right_apply (n := 1024) (w := 512) _ _ concatenates_S1024x512_S1024x512_S1024x1024_d1 p
    ⟨512 + k.val, by have := k.isLt; omega⟩ (by show ¬ 512 + k.val < 512; omega)).trans ?_
  exact congrArg (fun j : Fin 512 => x0 (ix2 p j)) (Fin.ext (Nat.add_sub_cancel_left ..))

/-- The product into the zero accumulator at (p, q), its 1024 terms as the first 512 and the last 512. -/
theorem product_halves (A : FVec Ideal S1024x1024 .bf16) (B : FVec Ideal S1024x2048 .bf16) (p : Fin 1024) (q : Fin 2048) :
    matmul (F := Ideal) dot_S1024x1024_S1024x2048_S1024x2048_1_0_0_1_n_n none A B
        (constant (F := Ideal) S1024x2048 .f32 0x00000000#32) (ix2 p q)
      = ∑ k : Fin 512, A (ix2 p (⟨k.val, by have := k.isLt; omega⟩ : Fin 1024)) * B (ix2 (⟨k.val, by have := k.isLt; omega⟩ : Fin 1024) q)
        + ∑ k : Fin 512, A (ix2 p (⟨512 + k.val, by have := k.isLt; omega⟩ : Fin 1024))
            * B (ix2 (⟨512 + k.val, by have := k.isLt; omega⟩ : Fin 1024) q) := by
  refine (Cert.PlainProduct.matmul_nn_apply (m := 1024) (k := 1024) (n := 2048)
    dot_S1024x1024_S1024x2048_S1024x2048_1_0_0_1_n_n_wf none A B p q).trans ?_
  exact Fin.sum_univ_add (a := 512) (b := 512) (fun c : Fin (512 + 512) => A (ix2 p c) * B (ix2 c q))

/-- THE BODY'S VALUE at (p, q): the squares against the first 512 rows of the weights block, plus the points against its last 512
    rows, plus the row block's entry q. -/
theorem payload_apply (x0 : FVec Ideal S1024x512 .f32) (x1 : FVec Ideal S1024x2048 .bf16) (x2 : FVec Ideal S1x2048 .f32)
    (p : Fin 1024) (q : Fin 2048) :
    k0_pay1 (F := Ideal) x0 x1 x2 (ix2 p q)
      = (∑ k : Fin 512, (x0 (ix2 p k) * x0 (ix2 p k)) * x1 (ix2 (⟨k.val, by have := k.isLt; omega⟩ : Fin 1024) q)
          + ∑ k : Fin 512, x0 (ix2 p k) * x1 (ix2 (⟨512 + k.val, by have := k.isLt; omega⟩ : Fin 1024) q))
        + x2 (ix2 (0 : Fin 1) q) := by
  have e1 : shapeCast S1024x2048 x1 shapeCasts_S1024x2048_S1024x2048 = x1 := shapeCast_self x1 _
  have e2 : shapeCast S1x2048 x2 shapeCasts_S1x2048_S1x2048 = x2 := shapeCast_self x2 _
  show matmul (F := Ideal) dot_S1024x1024_S1024x2048_S1024x2048_1_0_0_1_n_n none (beside x0)
        (shapeCast S1024x2048 x1 shapeCasts_S1024x2048_S1024x2048) (constant (F := Ideal) S1024x2048 .f32 0x00000000#32) (ix2 p q)
      + broadcastTo S1024x2048 (shapeCast S1x2048 x2 shapeCasts_S1x2048_S1x2048) broadcasts_S1x2048_S1024x2048 (ix2 p q) = _
  rw [e1, e2, product_halves, Cert.RowsProduct.broadcastTo_1n_an_apply]
  simp only [beside_left, beside_right]

/-- The same, for blocks known entry by entry: squares X(k)², points X(k), weight rows T(k) and B(k), row entry o. -/
theorem payload_of_entries (x0 : FVec Ideal S1024x512 .f32) (x1 : FVec Ideal S1024x2048 .bf16) (x2 : FVec Ideal S1x2048 .f32)
    (p : Fin 1024) (q : Fin 2048) (X T B : Fin 512 → EReal) (o : EReal)
    (h0 : ∀ k : Fin 512, x0 (ix2 p k) = X k)
    (ht : ∀ k : Fin 512, x1 (ix2 (⟨k.val, by have := k.isLt; omega⟩ : Fin 1024) q) = T k)
    (hb : ∀ k : Fin 512, x1 (ix2 (⟨512 + k.val, by have := k.isLt; omega⟩ : Fin 1024) q) = B k)
    (h2 : x2 (ix2 (0 : Fin 1) q) = o) :
    k0_pay1 (F := Ideal) x0 x1 x2 (ix2 p q) = (∑ k : Fin 512, (X k * X k) * T k + ∑ k : Fin 512, X k * B k) + o := by
  rw [payload_apply]
  simp only [h0, ht, hb, h2]

end Cert.Rbf.Body

end
-- ==== Proof.LibRealEntries.lean ====
/-
  Real entries of arrays over the extended reals, and how a finiteness precondition gives them.

  `IsReal x` says the extended real `x` is a real number.  Real numbers are closed under sums, products, maxima and
  finite sums.  A precondition of the usual form — for an input array `x`, the `and`-reduction over all axes, from
  `true`, of the entrywise test `|x| < +∞` came out `true` — makes every entry of `x` real: the reduction met `true`
  at every entry, and an extended real whose absolute value `max x (-x)` is below `+∞` is neither infinity.
-/
import Idealize.ShloMosaic.Lib.ReduceAll
import Idealize.ShloMosaic.Lib.Pipeline.Value
import Idealize.ShloMosaic.Lib.ValueIdx
import Idealize.ShloMosaic.PureOps.Ideal.Laws

noncomputable section

open scoped BigOperators

namespace Cert.RealEntries

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of real numbers is real. -/
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The single-precision word of 0.0 denotes a real number. -/
theorem isReal_zero_word : IsReal (Ideal.ofBits .f32 0x00000000#32) := ⟨0, by rw [Ideal.ofBits_zero_f32]; rfl⟩

/-- The single-precision word `0x7F800000` denotes `+∞`. -/
theorem ofBits_inf : Ideal.ofBits .f32 0x7F800000#32 = (⊤ : EReal) := by
  simp [Ideal.ofBits, Ideal.ieee]

/-- An extended real with `|x| < +∞`, as the ordered comparison of `max x (-x)` with the word of `+∞` reads it, is a
    real number. -/
theorem isReal_of_abs_lt (x : EReal)
    (h : Ideal.cmp .olt (Max.max x (-x)) (Ideal.ofBits .f32 0x7F800000#32) = 1#1) : IsReal x := by
  rw [ofBits_inf] at h
  have hlt : Max.max x (-x) < (⊤ : EReal) := by
    by_contra hc
    have h0 : Ideal.cmp .olt (Max.max x (-x)) (⊤ : EReal) = 0#1 := by
      show BitVec.ofBool (decide (Max.max x (-x) < (⊤ : EReal))) = 0#1
      rw [decide_eq_false hc]; rfl
    rw [h0] at h
    exact absurd h (by decide)
  induction x using EReal.rec with
  | bot => exact absurd hlt (by simp)
  | coe r => exact ⟨r, rfl⟩
  | top => exact absurd hlt (by simp)

instance : Subsingleton (⟨0, ![]⟩ : Shape).Idx := ⟨fun a b => funext fun d => d.elim0⟩

/-- ONE INPUT'S SHARE OF A FINITENESS PRECONDITION: when the `and`-reduction of `|x| < +∞` over the whole array `x`,
    started from `true`, came out `true`, every entry of `x` is real.  Any shape, any list of reduced axes. -/
theorem entries_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
      (cmpf .olt (Host.absf x) (broadcastInDim s ![] hb (constant (F := Ideal) ⟨0, ![]⟩ .f32 0x7F800000#32)))
      (constantI ⟨0, ![]⟩ 1 1#1) hr hu ValueIdx.ix0 = 1#1) (i : s.Idx) : IsReal (x i) := by
  have h := Host.reduce_andi_all _ _ hr hu ValueIdx.ix0 e i
  refine isReal_of_abs_lt (x i) ?_
  have hb' : broadcastInDim s ![] hb (constant (F := Ideal) ⟨0, ![]⟩ .f32 0x7F800000#32) i = Ideal.ofBits .f32 0x7F800000#32 :=
    broadcastInDim_apply _ hb _ i (fun a => a.elim0) (fun a => a.elim0)
  rw [← hb']
  exact h

end Cert.RealEntries

end
-- ==== Proof.Consts.lean ====
/-
  The three single-precision words the two programs spell, as the numbers they denote: 0, 2 and -2.
-/
import Idealize.ShloMosaic.PureOps.Ideal

noncomputable section

namespace Cert.Rbf.Consts

open Idealize.ShloMosaic

/-- The word of 2.0 denotes the real number 2. -/
theorem ofBits_two : Ideal.ofBits .f32 0x40000000#32 = ((2 : ℝ) : EReal) := by
  simp [Ideal.ofBits, Ideal.ieee, -EReal.coe_mul]; norm_num

/-- The word of -2.0 denotes the real number -2. -/
theorem ofBits_neg_two : Ideal.ofBits .f32 0xC0000000#32 = ((-2 : ℝ) : EReal) := by
  simp [Ideal.ofBits, Ideal.ieee, -EReal.coe_mul]; norm_num

end Cert.Rbf.Consts

end
-- ==== Proof.Spec.lean ====
/-
  The weighted squared distance to a centre, out(b, c) = Σ_k w(k, c)² · (x(b, k) − cen(c, k))², in the two arrangements the
  two programs compute it in, and the law that joins them.

  Expanding the square gives three sums over k: the squares x(b, k)² · w(k, c)², the cross terms x(b, k) · w(k, c)² · cen(c, k),
  and the offset w(k, c)² · cen(c, k)².  One arrangement folds the factor -2 into every cross term before summing; the other
  sums the cross terms first, doubles the sum and subtracts it.  Moving the factor -2 across the sum is a distributive law, which
  holds on the extended reals when the summands are real numbers; so the two arrangements agree for arrays of real entries.
-/
import proofs.«142469_j53300544143585_2_alg».proof.Proof.LibRealEntries
import proofs.«142469_j53300544143585_2_alg».proof.Proof.Consts
import Idealize.ShloMosaic.Lib.ValueIdx

noncomputable section

open scoped BigOperators

namespace Cert.Rbf

open Idealize.ShloMosaic Idealize.ShloMosaic.ValueIdx Cert.RealEntries

/-- The coercion of the reals into the extended reals commutes with finite sums. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- THE LAW.  For real x, W, C: the sum of the cross terms with -2 folded into each is minus twice the sum of the cross terms. -/
theorem folded_cross {ι : Type} [Fintype ι] (x W C : ι → EReal) (hx : ∀ k, IsReal (x k)) (hW : ∀ k, IsReal (W k))
    (hC : ∀ k, IsReal (C k)) :
    ∑ k, x k * ((((-2 : ℝ) : EReal) * W k) * C k) = -(((2 : ℝ) : EReal) * ∑ k, x k * (W k * C k)) := by
  choose xr hxr using hx
  choose Wr hWr using hW
  choose Cr hCr using hC
  obtain rfl : x = fun k => (xr k : EReal) := funext hxr
  obtain rfl : W = fun k => (Wr k : EReal) := funext hWr
  obtain rfl : C = fun k => (Cr k : EReal) := funext hCr
  have hl : ∀ k, (xr k : EReal) * ((((-2 : ℝ) : EReal) * (Wr k : EReal)) * (Cr k : EReal))
      = ((xr k * ((-2 * Wr k) * Cr k) : ℝ) : EReal) := fun k => by simp only [EReal.coe_mul]
  have hr : ∀ k, (xr k : EReal) * ((Wr k : EReal) * (Cr k : EReal)) = ((xr k * (Wr k * Cr k) : ℝ) : EReal) := fun k => by
    simp only [EReal.coe_mul]
  show ∑ k, (xr k : EReal) * ((((-2 : ℝ) : EReal) * (Wr k : EReal)) * (Cr k : EReal))
    = -(((2 : ℝ) : EReal) * ∑ k, (xr k : EReal) * ((Wr k : EReal) * (Cr k : EReal)))
  rw [Finset.sum_congr rfl fun k _ => hl k, Finset.sum_congr rfl fun k _ => hr k, ← coe_sum, ← coe_sum, ← EReal.coe_mul,
    ← EReal.coe_neg]
  refine congrArg _ ?_
  rw [Finset.mul_sum, ← Finset.sum_neg_distrib]
  exact Finset.sum_congr rfl fun k _ => by ring

/-! ## The two arrangements over the arrays' literal shapes -/

abbrev Points := (⟨2, ![8192, 512]⟩ : Shape).Idx → EReal
abbrev Weights := (⟨2, ![512, 2048]⟩ : Shape).Idx → EReal
abbrev Centres := (⟨2, ![2048, 512]⟩ : Shape).Idx → EReal

/-- Σ_k x(b, k)² · w(k, c)². -/
def squares (x : Points) (w : Weights) (b : Fin 8192) (c : Fin 2048) : EReal :=
  ∑ k : Fin 512, (x (ix2 b k) * x (ix2 b k)) * (w (ix2 k c) * w (ix2 k c))

/-- Σ_k w(k, c)² · cen(c, k)², added to the word of zero. -/
def offset (w : Weights) (cen : Centres) (c : Fin 2048) : EReal :=
  Ideal.ofBits .f32 0x00000000#32 + ∑ k : Fin 512, (w (ix2 k c) * w (ix2 k c)) * (cen (ix2 c k) * cen (ix2 c k))

/-- The arrangement with -2 folded into every cross term. -/
def foldedAt (x : Points) (w : Weights) (cen : Centres) (b : Fin 8192) (c : Fin 2048) : EReal :=
  (squares x w b c
    + ∑ k : Fin 512, x (ix2 b k) * ((Ideal.ofBits .f32 0xC0000000#32 * (w (ix2 k c) * w (ix2 k c))) * cen (ix2 c k)))
  + offset w cen c

/-- The arrangement that doubles the summed cross terms and subtracts. -/
def subtractedAt (x : Points) (w : Weights) (cen : Centres) (b : Fin 8192) (c : Fin 2048) : EReal :=
  (squares x w b c
    - Ideal.ofBits .f32 0x40000000#32 * ∑ k : Fin 512, x (ix2 b k) * ((w (ix2 k c) * w (ix2 k c)) * cen (ix2 c k)))
  + offset w cen c

/-- The first arrangement as an [8192, 2048] array. -/
def folded (x : Points) (w : Weights) (cen : Centres) : (⟨2, ![8192, 2048]⟩ : Shape).Idx → EReal :=
  fun i => foldedAt x w cen (i 0) (i 1)

/-- The second arrangement as an [8192, 2048] array. -/
def subtracted (x : Points) (w : Weights) (cen : Centres) : (⟨2, ![8192, 2048]⟩ : Shape).Idx → EReal :=
  fun i => subtractedAt x w cen (i 0) (i 1)

/-- For arrays of real entries the two arrangements are one array. -/
theorem folded_eq_subtracted (x : Points) (w : Weights) (cen : Centres) (hx : ∀ i, IsReal (x i)) (hw : ∀ i, IsReal (w i))
    (hc : ∀ i, IsReal (cen i)) : folded x w cen = subtracted x w cen := by
  funext i
  show foldedAt x w cen (i 0) (i 1) = subtractedAt x w cen (i 0) (i 1)
  unfold foldedAt subtractedAt
  rw [Consts.ofBits_neg_two, Consts.ofBits_two,
    folded_cross (fun k => x (ix2 (i 0) k)) (fun k => w (ix2 k (i 1)) * w (ix2 k (i 1))) (fun k => cen (ix2 (i 1) k))
      (fun k => hx _) (fun k => (hw _).mul (hw _)) (fun k => hc _),
    ← sub_eq_add_neg]

end Cert.Rbf

end
-- ==== Proof.KernelValue.lean ====
/-
  The kernel's result array as one function of its arguments.

  The grid has 8 points.  Point t reads rows 1024·t … 1024·t + 1023 of the points x, the whole joined weights and the whole offset row,
  and writes rows 1024·t … 1024·t + 1023 of the result.  Entry (p, q) of what it writes is the body's value of those blocks, which —
  the joined weights' upper half holding w², its lower half (-2 · w²) · cenᵀ, the row holding the offsets — is the arrangement with -2
  folded into every cross term, at row 1024·t + p and column q.  The 8 row blocks cover the result, so the result is that arrangement.
-/
import proofs.«142469_j53300544143585_2_alg».proof.Proof.Gen.KernelIdeal.Value
import proofs.«142469_j53300544143585_2_alg».proof.Proof.Prologue
import proofs.«142469_j53300544143585_2_alg».proof.Proof.Body
import proofs.«142469_j53300544143585_2_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.Rbf.Kernel

open Cert.KernelIdeal Cert.KernelIdeal.Gen

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the points' and the result's row block is the grid point, every other block index zero. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The points' block at grid point t: rows 1024·t … of the points. -/
theorem points_block (c : Dev nD) (t : Fin cfg0.N) (p : Fin 1024) (k : Fin 512) (r : Fin 8192) (hr : r.val = 1024 * t.val + p.val) :
    (iblk m c 0 t : FVec Ideal S1024x512 .f32) (ix2 p k)
      = (m ((c : Thread nD τ).loc main_arg0) : S8192x512.Idx → EReal) (ix2 r k) := by
  obtain ⟨e0, e1, -⟩ := index_maps t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 512 + 1 * k.val = k.val; rw [e1]; omega

/-- The weights' block at every grid point: the whole joined weights. -/
theorem weights_block (c : Dev nD) (t : Fin cfg0.N) (u : Fin 1024) (q : Fin 2048) :
    (iblk m c 1 t : FVec Ideal S1024x2048 .bf16) (ix2 u q)
      = Prologue.joined (m ((c : Thread nD τ).loc main_arg1)) (m ((c : Thread nD τ).loc main_arg2)) (ix2 u q) := by
  obtain ⟨-, -, e0, e1, -⟩ := index_maps t
  unfold iblk
  rw [View.read_apply]
  show (V m c main_call0_v10 : S1024x2048.Idx → EReal) _ = _
  rw [Prologue.V_joined]
  refine congrArg _ (funext fun a => Fin.ext ?_)
  match a with
  | ⟨0, _⟩ => show win0_1.index t (0 : Fin 2) * 1024 + 1 * u.val = u.val; rw [e0]; omega
  | ⟨1, _⟩ => show win0_1.index t (1 : Fin 2) * 2048 + 1 * q.val = q.val; rw [e1]; omega

/-- The row block at every grid point: the whole offset row. -/
theorem row_block (c : Dev nD) (t : Fin cfg0.N) (q : Fin 2048) :
    (iblk m c 2 t : FVec Ideal S1x2048 .f32) (ix2 (0 : Fin 1) q)
      = Prologue.offsetRow (m ((c : Thread nD τ).loc main_arg1)) (m ((c : Thread nD τ).loc main_arg2)) (ix2 (0 : Fin 1) q) := by
  obtain ⟨-, -, -, -, e0, e1, -⟩ := index_maps t
  unfold iblk
  rw [View.read_apply]
  show (V m c main_call0_v11 : S1x2048.Idx → EReal) _ = _
  rw [Prologue.V_offsetRow]
  refine congrArg _ (funext fun a => Fin.ext ?_)
  match a with
  | ⟨0, _⟩ => show win0_2.index t (0 : Fin 2) * 1 + 1 * 0 = 0; rw [e0]
  | ⟨1, _⟩ => show win0_2.index t (1 : Fin 2) * 2048 + 1 * q.val = q.val; rw [e1]; omega

/-- WHAT POINT t WRITES BACK is block t of the folded arrangement of the arguments. -/
theorem flushed_eq (c : Dev nD) (t : Fin cfg0.N) :
    (dats m 0 c).flushed 3 t = ((cfg0.win 3).blk t).view.read (Elt Ideal)
      (folded (m ((c : Thread nD τ).loc main_arg0)) (m ((c : Thread nD τ).loc main_arg1)) (m ((c : Thread nD τ).loc main_arg2))) := by
  rw [Cert.KernelIdeal.Value.flushed3]
  unfold out0_3
  rw [View.canon_unit_zero zero_offsets]
  simp only [View.ld_unit_zero (S := S1024x512) zero_offsets, View.ld_unit_zero (S := S1024x2048) zero_offsets,
    View.ld_unit_zero (S := S1x2048) zero_offsets]
  funext j
  obtain ⟨p, q, rfl⟩ : ∃ (p : Fin 1024) (q : Fin 2048), j = ix2 p q := ⟨j 0, j 1, eq_ix2 j⟩
  obtain ⟨-, -, -, -, -, -, e0, e1⟩ := index_maps t
  have ht : t.val < 8 := Nat.lt_of_lt_of_eq t.isLt (show cfg0.N = 8 from N_0)
  have hemb : ((cfg0.win 3).blk t).view.emb (ix2 p q) = ix2 (⟨1024 * t.val + p.val, by have := p.isLt; omega⟩ : Fin 8192) q := by
    funext a
    apply Fin.ext
    match a with
    | ⟨0, _⟩ => show win0_3.index t (0 : Fin 2) * 1024 + 1 * p.val = 1024 * t.val + p.val; rw [e0]; omega
    | ⟨1, _⟩ => show win0_3.index t (1 : Fin 2) * 2048 + 1 * q.val = q.val; rw [e1]; omega
  show k0_pay1 (F := Ideal) (iblk m c 0 t) (iblk m c 1 t) (iblk m c 2 t) (ix2 p q) = folded _ _ _ (((cfg0.win 3).blk t).view.emb (ix2 p q))
  rw [hemb]
  exact Body.payload_of_entries (iblk m c 0 t) (iblk m c 1 t) (iblk m c 2 t) p q _ _ _ _
    (fun k => points_block m c t p k ⟨1024 * t.val + p.val, by have := p.isLt; omega⟩ rfl)
    (fun k => (weights_block m c t _ q).trans (Prologue.joined_top _ _ k q))
    (fun k => (weights_block m c t _ q).trans (Prologue.joined_bottom _ _ k q))
    ((row_block m c t q).trans (Prologue.offsetRow_apply _ _ q))

/-- An index of the result is in point t's block iff each coordinate is in the block's range on its axis. -/
theorem mem_blk (t : Fin cfg0.N) (i : S8192x2048.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v0).slice (win0_3.rect t)).set ↔ _
  rw [View.set_slice_whole, Rect.mem_set_unit]
  exact Iff.rfl

/-- Row r of the result lies in the block of point r / 1024. -/
theorem covered (i : S8192x2048.Idx) : ∃ t : Fin cfg0.N, (cfg0.win 3).flush t = true ∧ i ∈ ((cfg0.win 3).blk t).view.set := by
  have hi0 : (i 0).val < 8192 := (i 0).isLt
  have hi1 : (i 1).val < 2048 := (i 1).isLt
  have hN : cfg0.N = 8 := N_0
  obtain ⟨t, htv⟩ : ∃ t : Fin cfg0.N, t.val = (i 0).val / 1024 := ⟨⟨(i 0).val / 1024, by rw [hN]; omega⟩, rfl⟩
  obtain ⟨-, -, -, -, -, -, e0, e1⟩ := index_maps t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e0, htv]; omega
  | ⟨1, _⟩ =>
    show win0_3.index t (1 : Fin 2) * 2048 ≤ (i 1).val ∧ (i 1).val < win0_3.index t (1 : Fin 2) * 2048 + 2048
    rw [e1]; omega

/-- THE RESULT ARRAY after the run is the folded arrangement of the arguments. -/
theorem final (c : Dev nD) : (dats m 0 c).arrAt 3 cfg0.N
    = folded (m ((c : Thread nD τ).loc main_arg0)) (m ((c : Thread nD τ).loc main_arg1)) (m ((c : Thread nD τ).loc main_arg2)) :=
  (dats m 0 c).arrAt_eq_of_cover 3 _ (fun t _ => flushed_eq m c t) covered

/-- The run, read: the result at the folded arrangement, the arguments unchanged. -/
theorem run : θ_run defs (onTc (τ := τ) (main (F := Ideal))) ⟨m, fun _ => 0, ρ⟩ fun r => ∀ c : Dev nD,
      r.2.mem ((c : Thread nD τ).loc main_v0)
        = folded (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Rbf.Kernel

end
-- ==== Proof.Reference.lean ====
/-
  The reference program's result, read one operation at a time, is the arrangement that doubles the summed cross terms and
  subtracts: at (b, c) its first product sums x(b, k)² · w(k, c)², its second sums x(b, k) · (w(k, c)² · cen(c, k)), the constant 2
  multiplies the second, the difference is taken, and the row sums of w(k, c)² · cen(c, k)² — the squared weights transposed against
  the squared centres — are added along every row.
-/
import proofs.«142469_j53300544143585_2_alg».proof.Proof.Gen.ReferenceIdeal.Read
import proofs.«142469_j53300544143585_2_alg».proof.Proof.Spec

noncomputable section

open scoped BigOperators
open Idealize.ShloMosaic Idealize.ShloMosaic.ValueIdx

namespace Cert.Rbf.Reference

open Cert.ReferenceIdeal Cert.ReferenceIdeal.Read

/-- The reference's last stage is the subtracting arrangement of its three arguments. -/
theorem result_eq (x0 : FVec Ideal S8192x512 .f32) (x1 : FVec Ideal S512x2048 .f32) (x2 : FVec Ideal S2048x512 .f32) :
    val_main_v15 (F := Ideal) x0 x1 x2 = subtracted x0 x1 x2 := by
  funext i
  obtain ⟨b, c, rfl⟩ : ∃ (b : Fin 8192) (c : Fin 2048), i = ix2 b c := ⟨i 0, i 1, eq_ix2 i⟩
  have l2 : ∀ k : Fin 512, lidx_main_v2 (ix2 b c) k = ix2 b k := fun k =>
    funext fun a => Fin.ext (by match a with | ⟨0, _⟩ => rfl | ⟨1, _⟩ => rfl)
  have r2 : ∀ k : Fin 512, ridx_main_v2 (ix2 b c) k = ix2 k c := fun k =>
    funext fun a => Fin.ext (by match a with | ⟨0, _⟩ => rfl | ⟨1, _⟩ => rfl)
  have l5 : ∀ k : Fin 512, lidx_main_v5 (ix2 b c) k = ix2 b k := fun k =>
    funext fun a => Fin.ext (by match a with | ⟨0, _⟩ => rfl | ⟨1, _⟩ => rfl)
  have r5 : ∀ k : Fin 512, ridx_main_v5 (ix2 b c) k = ix2 k c := fun k =>
    funext fun a => Fin.ext (by match a with | ⟨0, _⟩ => rfl | ⟨1, _⟩ => rfl)
  have t3 : ∀ k : Fin 512, idx_main_v3 (ix2 k c) = ix2 c k := fun k =>
    funext fun a => Fin.ext (by match a with | ⟨0, _⟩ => rfl | ⟨1, _⟩ => rfl)
  have b14 : idx_main_v14 (ix2 b c) = ix2 (0 : Fin 1) c :=
    funext fun a => Fin.ext (by match a with | ⟨0, _⟩ => rfl | ⟨1, _⟩ => rfl)
  have b13 : idx_main_v13 (ix2 (0 : Fin 1) c) = ix1 c :=
    funext fun a => Fin.ext (by match a with | ⟨0, _⟩ => rfl)
  have s9 : ∀ k : Fin 512, idx_main_v9 (ix1 c) k = ix2 c k := fun k =>
    funext fun a => Fin.ext (by match a with | ⟨0, _⟩ => rfl | ⟨1, _⟩ => rfl)
  have t6 : ∀ k : Fin 512, idx_main_v6 (ix2 c k) = ix2 k c := fun k =>
    funext fun a => Fin.ext (by match a with | ⟨0, _⟩ => rfl | ⟨1, _⟩ => rfl)
  show _ = subtractedAt x0 x1 x2 b c
  unfold subtractedAt squares offset
  rw [val_main_v15_apply, val_main_v12_apply, val_main_v2_apply, val_main_v11_apply, val_main_v10_apply, val_main_cst_0_apply,
    val_main_v5_apply, val_main_v14_apply, b14, val_main_v13_apply, b13, val_main_v9_apply, val_main_cst_apply]
  simp only [l2, r2, l5, r5, s9, val_main_v1_apply, val_main_v0_apply, val_main_v4_apply, val_main_v3_apply, t3,
    val_main_v8_apply, val_main_v6_apply, t6, val_main_v7_apply, Ideal.mulf_def, Ideal.addf_def, Ideal.subf_def, Ideal.ofBits_def]

end Cert.Rbf.Reference

end
-- ==== Proof.Finite.lean ====
/-
  From the precondition to real entries.  The precondition is the conjunction of three tests, one per input array: that the
  and-reduction over the whole array of |entry| < +∞ comes out true.  Each conjunct makes every entry of its array a real number.
-/
import proofs.«142469_j53300544143585_2_alg».proof.Pre_finite_inputs
import proofs.«142469_j53300544143585_2_alg».proof.Proof.LibRealEntries
import Idealize.ShloMosaic.Lib.Affine

noncomputable section

namespace Cert.Rbf.Finite

open Idealize.ShloMosaic Cert.RealEntries Cert.Pre_finite_inputs Cert.Pre_finite_inputs.Facts

variable [Cert.Pre_finite_inputs.Facts]

/-- When the printed precondition holds of three arrays, all their entries are real numbers. -/
theorem entries_real_of_pre (x : FVec Ideal S8192x512 .f32) (w : FVec Ideal S512x2048 .f32) (cen : FVec Ideal S2048x512 .f32)
    (h : Cert.Pre_finite_inputs.fn (F := Ideal) x w cen = fun _ => 1#1) :
    (∀ i, IsReal (x i)) ∧ (∀ i, IsReal (w i)) ∧ (∀ i, IsReal (cen i)) := by
  have h0 := congrFun h ValueIdx.ix0
  dsimp only [Cert.Pre_finite_inputs.fn] at h0
  obtain ⟨h01, h2⟩ := IntOp.andi_eq_one.mp h0
  obtain ⟨hx, hw⟩ := IntOp.andi_eq_one.mp h01
  exact ⟨entries_real x bcast_S_S8192x512 reducesTo_S8192x512_S_d0_1 h_S_ hx,
    entries_real w bcast_S_S512x2048 reducesTo_S512x2048_S_d0_1 h_S_ hw,
    entries_real cen bcast_S_S2048x512 reducesTo_S2048x512_S_d0_1 h_S_ h2⟩

end Cert.Rbf.Finite

end
-- ==== Proof.lean ====
/-
  The weighted squared distance to every centre, out(b, c) = Σ_k w(k, c)² · (x(b, k) − cen(c, k))², computed two ways.

  Both programs expand the square into the squares term Σ_k x(b, k)² · w(k, c)², the cross terms x(b, k) · w(k, c)² · cen(c, k) and
  the offset Σ_k w(k, c)² · cen(c, k)².  The kernel prepares on the host the joined weights — w² stacked on (-2 · w²) · cenᵀ — and the
  offset row; each of its 8 grid points lays the squares of 1024 rows of x beside the rows themselves, multiplies this [1024, 1024]
  operand into the joined weights and adds the offset row: the cross terms enter with -2 folded into each.  The reference takes the
  two products separately, doubles the second and subtracts it, then adds the offsets.  Over the extended reals the two agree because
  the precondition makes every input entry a real number, and for real summands the factor -2 moves across the sum.

  The proof reads the host preparation and the body at an index, assembles the 8 row blocks of the result into one array, identifies
  the reference's stages with its arrangement, takes the real entries from the precondition, and joins the two arrangements by the law.
-/
import proofs.«142469_j53300544143585_2_alg».proof.Defs
import proofs.«142469_j53300544143585_2_alg».proof.Proof.Gen.Kernel
import proofs.«142469_j53300544143585_2_alg».proof.Proof.Gen.Kernel.Frame
import proofs.«142469_j53300544143585_2_alg».proof.Proof.Gen.KernelIdeal
import proofs.«142469_j53300544143585_2_alg».proof.Proof.Gen.KernelIdeal.Frame
import proofs.«142469_j53300544143585_2_alg».proof.Proof.Gen.KernelIdeal.Value
import proofs.«142469_j53300544143585_2_alg».proof.Proof.Gen.ReferenceIdeal
import proofs.«142469_j53300544143585_2_alg».proof.Proof.Gen.ReferenceIdeal.Run
import proofs.«142469_j53300544143585_2_alg».proof.Proof.Gen.ReferenceIdeal.Read
import proofs.«142469_j53300544143585_2_alg».proof.Proof.Gen.Pre_finite_inputs
import proofs.«142469_j53300544143585_2_alg».proof.Proof.KernelValue
import proofs.«142469_j53300544143585_2_alg».proof.Proof.Reference
import proofs.«142469_j53300544143585_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The kernel's result array ends at the arrangement with -2 folded into the cross terms, the reference's at the arrangement that
    subtracts twice their sum, of arguments that agree and whose entries the precondition makes real: one array. -/
theorem algebraic : Cert.algebraic_KernelIdeal_ReferenceIdeal := by
  intro m ρ m' ρ' hpre hagree
  refine ⟨fun c => Cert.Rbf.folded
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw, hc⟩ := Cert.Rbf.Finite.entries_real_of_pre _ _ _ (hpre c)
  rw [Cert.ReferenceIdeal.Read.val_main_v15_eq, Cert.Rbf.Reference.result_eq, (hagree c).1, (hagree c).2.1, (hagree c).2.2]
  exact (Cert.Rbf.folded_eq_subtracted _ _ _ hx hw hc).symm

theorem claim : Cert.Claim := ⟨Cert.Kernel.Gen.facts, Cert.KernelIdeal.Gen.facts, Cert.ReferenceIdeal.Gen.facts,
  Cert.Pre_finite_inputs.Gen.facts, frame_kernel, frame_kernelIdeal, frame_reference, trivial, algebraic⟩

end Cert.Proof

end
